-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S128x128 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩

abbrev nBuf : Space → Nat
  | .hbm => 67
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S_, .i32⟩
  | .hbm, ⟨38, _⟩ => ⟨S50000, .i32⟩
  | .hbm, ⟨39, _⟩ => ⟨S600000x1, .i32⟩
  | .hbm, ⟨40, _⟩ => ⟨S50000, .i32⟩
  | .hbm, ⟨41, _⟩ => ⟨S_, .i32⟩
  | .hbm, ⟨42, _⟩ => ⟨S600000, .i32⟩
  | .hbm, ⟨43, _⟩ => ⟨S_, .i32⟩
  | .hbm, ⟨44, _⟩ => ⟨S50000, .i32⟩
  | .hbm, ⟨45, _⟩ => ⟨S600000x1, .i32⟩
  | .hbm, ⟨46, _⟩ => ⟨S50000, .i32⟩
  | .hbm, ⟨47, _⟩ => ⟨S50000, .i32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .i1⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S_, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1200000x128 : Shape := ⟨2, ![1200000, 128]⟩
abbrev S1200000 : Shape := ⟨1, ![1200000]⟩
abbrev S1200000x1 : Shape := ⟨2, ![1200000, 1]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S128x128, .f32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S128x128, .f32⟩
  | .hbm, ⟨30, _⟩ => ⟨S600000x128, .f32⟩
  | .hbm, ⟨31, _⟩ => ⟨S1200000x128, .f32⟩
  | .hbm, ⟨32, _⟩ => ⟨S1200000, .i32⟩
  | .hbm, ⟨33, _⟩ => ⟨S_, .f32⟩
  | .hbm, ⟨34, _⟩ => ⟨S50000x128, .f32⟩
  | .hbm, ⟨35, _⟩ => ⟨S1200000x1, .i32⟩
  | .hbm, ⟨36, _⟩ => ⟨S50000x128, .f32⟩
  | .hbm, ⟨37, _⟩ => ⟨S_, .f32⟩
  | .hbm, ⟨38, _⟩ => ⟨S1200000x1, .f32⟩
  | .hbm, ⟨39, _⟩ => ⟨S_, .f32⟩
  | .hbm, ⟨40, _⟩ => ⟨S50000x1, .f32⟩
  | .hbm, ⟨41, _⟩ => ⟨S1200000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .i1⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S_, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  concatenates_S600000x128_S600000x128_S1200000x128_d0 : Shape.Concatenates [S600000x128, S600000x128] S1200000x128 0
  concatenates_S600000_S600000_S1200000_d0 : Shape.Concatenates [S600000, S600000] S1200000 0
  bcast_S_S50000x128 : S_.BroadcastsInDim S50000x128 (![] : Fin 0 → Fin S50000x128.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S1200000x1_S1200000x128_1_0_0_1_wf : ScatterDims.WF S50000x128 S1200000x1 S1200000x128 [1] [0] [0] 1
  scatter_S50000x1_S1200000x1_S1200000x1_1_0_0_1_wf : ScatterDims.WF S50000x1 S1200000x1 S1200000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def scatter_S50000x1_S1200000x1_S1200000x1_1_0_0_1 : ScatterDims S50000x1 S1200000x1 S1200000x1 where
  updateWindowDims := [1]
  insertedWindowDims := [0]
  scatterDimsToOperandDims := [0]
  indexVectorDim := 1
  wf := scatter_S50000x1_S1200000x1_S1200000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.KernelValue.lean ====
/-
  What the fused kernel leaves in its output array.

  The grid has 25 points; point `t` sees rows `2000·t … 2000·t + 1999` of the four row-blocked arrays (the node rows,
  the two aggregates, the reciprocal-count column) and the whole of the three weight matrices.  At a row `n` and a
  column `c` it writes

      max( Σ_k x(n,k)·w0(k,c) + ( Σ_k s1(n,k)·w1(k,c) + Σ_k s2(n,k)·w2(k,c) ) · r(n,0), 0 )

  (the narrowing of the operands before the three products is the identity on extended reals).  Every entry depends
  only on row `n` of the row-blocked arrays, so the blocks are the restrictions of one whole-array function,
  `fused`, and since the 25 blocks cover the 50000 rows the output array ends as `fused` of the seven arrays.
-/
import proofs.«181108_j50620484550703_2_alg».proof.Proof.Gen.KernelIdeal.Value
import proofs.«181108_j50620484550703_2_alg».proof.Proof.LibPlainDot
import proofs.«181108_j50620484550703_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The kernel's three products are plain `[2000,128] × [128,128]` products. -/
theorem plainD : Cert.LibPlainDot.Plain dot_S2000x128_S128x128_S2000x128_1_0_0_1_n_n := ⟨rfl, rfl, rfl, rfl, rfl, rfl⟩

/-- The output entry at row `n`, column `c`, from the seven arrays. -/
def fusedAt (A0 A1 A2 : S50000x128.Idx → EReal) (A3 : S50000x1.Idx → EReal) (A4 A5 A6 : S128x128.Idx → EReal)
    (n : Fin 50000) (c : Fin 128) : EReal :=
  max ((∑ k : Fin 128, A0 (ix2 n k) * A4 (ix2 k c))
      + ((∑ k : Fin 128, A1 (ix2 n k) * A5 (ix2 k c)) + ∑ k : Fin 128, A2 (ix2 n k) * A6 (ix2 k c)) * A3 (ix2 n (0 : Fin 1)))
    (Ideal.ofBits .f32 0x00000000#32)

/-- The whole output array as one function of the seven arrays. -/
def fused (A0 A1 A2 : S50000x128.Idx → EReal) (A3 : S50000x1.Idx → EReal) (A4 A5 A6 : S128x128.Idx → EReal) :
    S50000x128.Idx → EReal :=
  fun i => fusedAt A0 A1 A2 A3 A4 A5 A6 (i 0) (i 1)

/-- One product of the body into the zero accumulator, at an entry. -/
theorem product_entry (l : FVec Ideal S2000x128 .bf16) (r : FVec Ideal S128x128 .bf16) (p : Fin 2000) (q : Fin 128) :
    FloatOps.matmul (F := Ideal) (φ₁ := .bf16) (φ₂ := .bf16) dot_S2000x128_S128x128_S2000x128_1_0_0_1_n_n none l r
        (constant S2000x128 .f32 0x00000000#32) (ix2 p q)
      = ∑ k : Fin 128, l (ix2 p k) * r (ix2 k q) :=
  (Ideal.matmul_constant_zero_apply (φ₁ := .bf16) (φ₂ := .bf16) dot_S2000x128_S128x128_S2000x128_1_0_0_1_n_n none l r (ix2 p q)).trans
    (plainD.sum_eq l r p q)

/-- THE BODY'S STORED VALUE AT AN ENTRY of the block, from the seven loaded blocks. -/
theorem pay_apply (x0 x1 x2 : Vec Ideal S2000x128 .f32) (x3 : Vec Ideal S2000x1 .f32) (x4 x5 x6 : Vec Ideal S128x128 .f32)
    (p : Fin 2000) (q : Fin 128) :
    k0_pay1 x0 x1 x2 x4 x5 x6 x3 (ix2 p q)
      = max ((∑ k : Fin 128, x0 (ix2 p k) * x4 (ix2 k q))
          + ((∑ k : Fin 128, x1 (ix2 p k) * x5 (ix2 k q)) + ∑ k : Fin 128, x2 (ix2 p k) * x6 (ix2 k q)) * x3 (ix2 p (0 : Fin 1)))
        (Ideal.ofBits .f32 0x00000000#32) := by
  unfold k0_pay1
  simp only [shapeCast_self]
  rw [maximumf_apply, addf_apply, mulf_apply, addf_apply]
  rw [Cert.LibKeepdims.broadcastTo_a1_ab_apply]
  refine congrArg₂ max (congrArg₂ (· + ·) ?_ (congrArg₂ (· * ·) (congrArg₂ (· + ·) ?_ ?_) rfl)) rfl
  · exact product_entry _ _ p q
  · exact product_entry _ _ p q
  · exact product_entry _ _ p q

/-- The same against whole arrays: if the loaded blocks are the arrays' row `n` (at block row `p`) and the weight
    matrices' column `c` (at block column `q`), the stored value is the arrays' fused entry `(n, c)`. -/
theorem pay_eq_fusedAt (A0 A1 A2 : S50000x128.Idx → EReal) (A3 : S50000x1.Idx → EReal) (A4 A5 A6 : S128x128.Idx → EReal)
    (x0 x1 x2 : Vec Ideal S2000x128 .f32) (x3 : Vec Ideal S2000x1 .f32) (x4 x5 x6 : Vec Ideal S128x128 .f32)
    (n : Fin 50000) (c : Fin 128) (p : Fin 2000) (q : Fin 128)
    (h0 : ∀ k : Fin 128, x0 (ix2 p k) = A0 (ix2 n k)) (h1 : ∀ k : Fin 128, x1 (ix2 p k) = A1 (ix2 n k))
    (h2 : ∀ k : Fin 128, x2 (ix2 p k) = A2 (ix2 n k)) (h3 : x3 (ix2 p (0 : Fin 1)) = A3 (ix2 n (0 : Fin 1)))
    (h4 : ∀ k : Fin 128, x4 (ix2 k q) = A4 (ix2 k c)) (h5 : ∀ k : Fin 128, x5 (ix2 k q) = A5 (ix2 k c))
    (h6 : ∀ k : Fin 128, x6 (ix2 k q) = A6 (ix2 k c)) :
    k0_pay1 x0 x1 x2 x4 x5 x6 x3 (ix2 p q) = fusedAt A0 A1 A2 A3 A4 A5 A6 n c := by
  rw [pay_apply]
  unfold fusedAt
  simp only [h0, h1, h2, h3, h4, h5, h6]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 25 points: the four row-blocked inputs move with the output's row block,
    the weights stay put, and the output's row block is the point's number. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) = t.val :=
  (by decide +kernel : ∀ t : Fin grid0.N, _)

set_option maxHeartbeats 4000000 in
/-- WHAT POINT `t` WRITES BACK is block `t` of `fused` of the seven arrays as the region finds them. -/
theorem flushed_eq (c : Dev nD) (t : Fin cfg0.N) :
    (dats m 0 c).flushed 7 t = ((cfg0.win 7).blk t).view.read (Elt Ideal)
      (fused (V m c main_arg0) (V m c main_v20) (V m c main_v23) (V m c main_v41) (V m c main_v42) (V m c main_v43) (V m c main_v44)) := by
  show (cfg0.win 7).cut (grid0.coords t) ((dats m 0 c).after 7 t) = _
  rw [after0_7]
  unfold out0_7
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41, e50, e51, e60, e61, e71, e70⟩ := idx_facts t
  funext j
  obtain ⟨p, q, rfl⟩ : ∃ (p : Fin 2000) (q : Fin 128), j = ix2 p q := ⟨j 0, j 1, eq_ix2 j⟩
  show k0_pay1 (iblk m c 0 t) (iblk m c 1 t) (iblk m c 2 t) (iblk m c 4 t) (iblk m c 5 t) (iblk m c 6 t) (iblk m c 3 t) (ix2 p q)
    = fusedAt (V m c main_arg0) (V m c main_v20) (V m c main_v23) (V m c main_v41) (V m c main_v42) (V m c main_v43) (V m c main_v44)
        ((((cfg0.win 7).blk t).view.emb (ix2 p q)) 0) ((((cfg0.win 7).blk t).view.emb (ix2 p q)) 1)
  refine pay_eq_fusedAt (V m c main_arg0) (V m c main_v20) (V m c main_v23) (V m c main_v41) (V m c main_v42) (V m c main_v43) (V m c main_v44)
    (iblk m c 0 t) (iblk m c 1 t) (iblk m c 2 t) (iblk m c 3 t) (iblk m c 4 t) (iblk m c 5 t) (iblk m c 6 t)
    ((((cfg0.win 7).blk t).view.emb (ix2 p q)) 0) ((((cfg0.win 7).blk t).view.emb (ix2 p q)) 1) p q ?_ ?_ ?_ ?_ ?_ ?_ ?_
  · intro k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 2000 + 1 * p.val = win0_7.index t (0 : Fin 2) * 2000 + 1 * p.val; omega
    | ⟨1, _⟩ => show win0_0.index t (1 : Fin 2) * 128 + 1 * k.val = k.val; omega
  · intro k
    show V m c main_v20 (((cfg0.win 1).blk t).view.emb (ix2 p k)) = V m c main_v20 _
    refine congrArg (V m c main_v20) (funext fun a => Fin.ext ?_)
    match a with
    | ⟨0, _⟩ => show win0_1.index t (0 : Fin 2) * 2000 + 1 * p.val = win0_7.index t (0 : Fin 2) * 2000 + 1 * p.val; omega
    | ⟨1, _⟩ => show win0_1.index t (1 : Fin 2) * 128 + 1 * k.val = k.val; omega
  · intro k
    show V m c main_v23 (((cfg0.win 2).blk t).view.emb (ix2 p k)) = V m c main_v23 _
    refine congrArg (V m c main_v23) (funext fun a => Fin.ext ?_)
    match a with
    | ⟨0, _⟩ => show win0_2.index t (0 : Fin 2) * 2000 + 1 * p.val = win0_7.index t (0 : Fin 2) * 2000 + 1 * p.val; omega
    | ⟨1, _⟩ => show win0_2.index t (1 : Fin 2) * 128 + 1 * k.val = k.val; omega
  · show V m c main_v41 (((cfg0.win 3).blk t).view.emb (ix2 p (0 : Fin 1))) = V m c main_v41 _
    refine congrArg (V m c main_v41) (funext fun a => Fin.ext ?_)
    match a with
    | ⟨0, _⟩ => show win0_3.index t (0 : Fin 2) * 2000 + 1 * p.val = win0_7.index t (0 : Fin 2) * 2000 + 1 * p.val; omega
    | ⟨1, _⟩ => show win0_3.index t (1 : Fin 2) * 1 + 1 * 0 = 0; omega
  · intro k
    show V m c main_v42 (((cfg0.win 4).blk t).view.emb (ix2 k q)) = V m c main_v42 _
    refine congrArg (V m c main_v42) (funext fun a => Fin.ext ?_)
    match a with
    | ⟨0, _⟩ => show win0_4.index t (0 : Fin 2) * 128 + 1 * k.val = k.val; omega
    | ⟨1, _⟩ => show win0_4.index t (1 : Fin 2) * 128 + 1 * q.val = win0_7.index t (1 : Fin 2) * 128 + 1 * q.val; omega
  · intro k
    show V m c main_v43 (((cfg0.win 5).blk t).view.emb (ix2 k q)) = V m c main_v43 _
    refine congrArg (V m c main_v43) (funext fun a => Fin.ext ?_)
    match a with
    | ⟨0, _⟩ => show win0_5.index t (0 : Fin 2) * 128 + 1 * k.val = k.val; omega
    | ⟨1, _⟩ => show win0_5.index t (1 : Fin 2) * 128 + 1 * q.val = win0_7.index t (1 : Fin 2) * 128 + 1 * q.val; omega
  · intro k
    show V m c main_v44 (((cfg0.win 6).blk t).view.emb (ix2 k q)) = V m c main_v44 _
    refine congrArg (V m c main_v44) (funext fun a => Fin.ext ?_)
    match a with
    | ⟨0, _⟩ => show win0_6.index t (0 : Fin 2) * 128 + 1 * k.val = k.val; omega
    | ⟨1, _⟩ => show win0_6.index t (1 : Fin 2) * 128 + 1 * q.val = win0_7.index t (1 : Fin 2) * 128 + 1 * q.val; omega

/-- An index of the output array is in point `t`'s block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v45).slice (win0_7.rect t)).set ↔ _
  rw [View.set_slice_whole, Rect.mem_set_unit]
  exact Iff.rfl

/-- Every index is in some point's block: row `r` is in the block of point `r / 2000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : grid0.N = 25 := N_0
  have ht : (i 0).val / 2000 < cfg0.N := by show _ < grid0.N; omega
  refine ⟨⟨(i 0).val / 2000, ht⟩, flush0_7 _, ?_⟩
  rw [mem_blk]
  obtain ⟨-, -, -, -, -, -, -, -, -, -, -, -, -, -, e71, e70⟩ := idx_facts ⟨(i 0).val / 2000, ht⟩
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win0_7.index ⟨(i 0).val / 2000, ht⟩ (1 : Fin 2) * 128 ≤ (i 1).val ∧ (i 1).val < win0_7.index ⟨(i 0).val / 2000, ht⟩ (1 : Fin 2) * 128 + 128
    rw [e71]
    omega

/-- THE OUTPUT ARRAY after the run is `fused` of the seven arrays as the region finds them. -/
theorem final (c : Dev nD) : (dats m 0 c).arrAt 7 cfg0.N
    = fused (V m c main_arg0) (V m c main_v20) (V m c main_v23) (V m c main_v41) (V m c main_v42) (V m c main_v43) (V m c main_v44) :=
  (dats m 0 c).arrAt_eq_of_cover 7 _ (fun t _ => flushed_eq m c t) cover

end Cert.KernelValue

end
-- ==== Proof.KernelHost.lean ====
/-
  What the host operations in front of the fused kernel hand to it, and the kernel program's whole run.

  Before the kernel is launched the program computes, from the node rows `N` and the edge list `E`: the rows of the
  source (destination) nodes gathered per edge and summed into the row of each edge's destination (source) node
  — the two aggregates —; the number of edge ends at each node, counted in 32-bit words and converted to a float; the
  reciprocal of that count, or zero at a node with none; and the three weight matrices transposed.  Each of these
  is one term of the arguments, named here; the kernel's output array is `fused` of them (the kernel-side value).
-/
import proofs.«181108_j50620484550703_2_alg».proof.Proof.KernelValue
import Idealize.ShloMosaic.Lib.StableHlo.Run

noncomputable section

namespace Cert.KernelHost

open Cert.KernelIdeal Cert.KernelIdeal.Gen Idealize.ShloMosaic Idealize.ShloMosaic.TcCoe Idealize.SL.Sem Idealize.ShloMosaic.StableHlo

/-- Row 0 of the edge list: each edge's source node. -/
def edgeSrc (E : IVec S2x600000 32) : IVec S600000 32 :=
  shapeCast _ (extractStridedSlice S1x600000 ![0, 0] E slices_S2x600000_S1x600000_0_0) shapeCasts_S1x600000_S600000
/-- Row 1 of the edge list: each edge's destination node. -/
def edgeDst (E : IVec S2x600000 32) : IVec S600000 32 :=
  shapeCast _ (extractStridedSlice S1x600000 ![1, 0] E slices_S2x600000_S1x600000_1_0) shapeCasts_S1x600000_S600000
/-- Node numbers made ready for a gather: a negative number counts from the end, and the list becomes a column. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)
/-- The node rows the listed numbers name, one per edge. -/
def gathered (N : FVec Ideal S50000x128 .f32) (v : IVec S600000 32) : FVec Ideal S600000x128 .f32 :=
  Host.gather gather_S50000x128_S600000x1_S600000x128_1_0_n_n_0_1_1128 N (wrapCol v)
/-- A list of node numbers as a column, unwrapped: the receiving rows of an accumulation. -/
def rowCol (v : IVec S600000 32) : IVec S600000x1 32 := broadcastInDim S600000x1 ![0] bcast_S600000_S600000x1_0 v
/-- Edge rows `X` summed into the node rows the list `rows` names. -/
def agg (X : FVec Ideal S600000x128 .f32) (rows : IVec S600000 32) : FVec Ideal S50000x128 .f32 :=
  Host.scatterAdd scatter_S50000x128_S600000x1_S600000x128_1_0_0_1
    (broadcastInDim S50000x128 ![] bcast_S_S50000x128 (constant S_ .f32 0x00000000#32)) (rowCol rows) X
/-- How many entries of the list name each node, in 32-bit words. -/
def cntWord (rows : IVec S600000 32) : IVec S50000 32 :=
  Host.scatter scatter_S50000_S600000x1_S600000_n_0_0_1 IntOp.addi
    (broadcastInDim S50000 ![] bcast_S_S50000 (constantI S_ 32 0#32)) (rowCol rows)
    (broadcastInDim S600000 ![] bcast_S_S600000 (constantI S_ 32 1#32))
/-- The number of edge ends at each node, as a float column. -/
def cntCol (E : IVec S2x600000 32) : FVec Ideal S50000x1 .f32 :=
  broadcastInDim S50000x1 ![0] bcast_S50000_S50000x1_0 (sitofp .f32 (addi (cntWord (edgeDst E)) (cntWord (edgeSrc E))))
/-- The reciprocal of that number, zero where it is zero. -/
def invCnt (E : IVec S2x600000 32) : FVec Ideal S50000x1 .f32 :=
  select (cmpf .ogt (cntCol E) (broadcastInDim S50000x1 ![] bcast_S_S50000x1 (constant S_ .f32 0x00000000#32)))
    (Host.divf (broadcastInDim S50000x1 ![] bcast_S_S50000x1 (constant S_ .f32 0x3F800000#32))
      (maximumf (cntCol E) (broadcastInDim S50000x1 ![] bcast_S_S50000x1 (constant S_ .f32 0x3F800000#32))))
    (broadcastInDim S50000x1 ![] bcast_S_S50000x1 (id (constant (F := Ideal) S_ .f32 0x00000000#32)))
/-- A weight matrix transposed. -/
def wT (W : FVec Ideal S128x128 .f32) : FVec Ideal S128x128 .f32 := transpose S128x128 [1, 0] W transposes_S128x128_S128x128_1_0

/-- The kernel program's result as one term of the arguments. -/
def kerOut (N : FVec Ideal S50000x128 .f32) (E : IVec S2x600000 32) (W0 W1 W2 : FVec Ideal S128x128 .f32) :
    FVec Ideal S50000x128 .f32 :=
  Cert.KernelValue.fused N (agg (gathered N (edgeSrc E)) (edgeDst E)) (agg (gathered N (edgeDst E)) (edgeSrc E)) (invCnt E)
    (wT W0) (wT W1) (wT W2)

variable (m : (ℓ : Loc nD τ sig) → Buf (Elt Ideal) ℓ) (ρ : Dev nD → PrngReg)

set_option maxRecDepth 8192 in
set_option maxHeartbeats 4000000 in
/-- The first aggregate as the region finds it. -/
theorem V_v20 (c : Dev nD) : V m c main_v20
    = agg (gathered (m ((c : Thread nD τ).loc main_arg0)) (edgeSrc (m ((c : Thread nD τ).loc main_arg1)))) (edgeDst (m ((c : Thread nD τ).loc main_arg1))) := by
  dsimp only [V]
  simp only [hostOps0, hostOps0_1, hostOps0_2, List.flatten_cons, List.flatten_nil, List.append_nil, List.cons_append, List.nil_append]
  after_results_simp
  rfl

set_option maxRecDepth 8192 in
set_option maxHeartbeats 4000000 in
/-- The second aggregate as the region finds it. -/
theorem V_v23 (c : Dev nD) : V m c main_v23
    = agg (gathered (m ((c : Thread nD τ).loc main_arg0)) (edgeDst (m ((c : Thread nD τ).loc main_arg1)))) (edgeSrc (m ((c : Thread nD τ).loc main_arg1))) := by
  dsimp only [V]
  simp only [hostOps0, hostOps0_1, hostOps0_2, List.flatten_cons, List.flatten_nil, List.append_nil, List.cons_append, List.nil_append]
  after_results_simp
  rfl

set_option maxRecDepth 8192 in
set_option maxHeartbeats 4000000 in
/-- The reciprocal-count column as the region finds it. -/
theorem V_v41 (c : Dev nD) : V m c main_v41 = invCnt (m ((c : Thread nD τ).loc main_arg1)) := by
  dsimp only [V]
  simp only [hostOps0, hostOps0_1, hostOps0_2, List.flatten_cons, List.flatten_nil, List.append_nil, List.cons_append, List.nil_append]
  after_results_simp
  rfl

set_option maxRecDepth 8192 in
set_option maxHeartbeats 4000000 in
/-- The three transposed weight matrices as the region finds them. -/
theorem V_v42 (c : Dev nD) : V m c main_v42 = wT (m ((c : Thread nD τ).loc main_arg2)) := by
  dsimp only [V]
  simp only [hostOps0, hostOps0_1, hostOps0_2, List.flatten_cons, List.flatten_nil, List.append_nil, List.cons_append, List.nil_append]
  after_results_simp
  rfl

set_option maxRecDepth 8192 in
set_option maxHeartbeats 4000000 in
theorem V_v43 (c : Dev nD) : V m c main_v43 = wT (m ((c : Thread nD τ).loc main_arg3)) := by
  dsimp only [V]
  simp only [hostOps0, hostOps0_1, hostOps0_2, List.flatten_cons, List.flatten_nil, List.append_nil, List.cons_append, List.nil_append]
  after_results_simp
  rfl

set_option maxRecDepth 8192 in
set_option maxHeartbeats 4000000 in
theorem V_v44 (c : Dev nD) : V m c main_v44 = wT (m ((c : Thread nD τ).loc main_arg4)) := by
  dsimp only [V]
  simp only [hostOps0, hostOps0_1, hostOps0_2, List.flatten_cons, List.flatten_nil, List.append_nil, List.cons_append, List.nil_append]
  after_results_simp
  rfl

/-- The output array after the run is `kerOut` of the arguments. -/
theorem final_args (c : Dev nD) : (dats m 0 c).arrAt 7 cfg0.N
    = kerOut (m ((c : Thread nD τ).loc main_arg0)) (m ((c : Thread nD τ).loc main_arg1)) (m ((c : Thread nD τ).loc main_arg2))
        (m ((c : Thread nD τ).loc main_arg3)) (m ((c : Thread nD τ).loc main_arg4)) := by
  rw [Cert.KernelValue.final, V_main_arg0, V_v20, V_v23, V_v41, V_v42, V_v43, V_v44]
  rfl

/-- THE KERNEL PROGRAM'S RUN: every weakly fair execution terminates with the result at `kerOut` of the arguments and
    the arguments unchanged. -/
theorem run : θ_run defs (onTc (τ := τ) (main (F := Ideal))) ⟨m, fun _ => 0, ρ⟩ fun r => ∀ c : Dev nD,
      r.2.mem ((c : Thread nD τ).loc main_v45)
        = kerOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩)
    (Cert.KernelIdeal.Value.run_blocks m ρ)

end Cert.KernelHost

end
-- ==== Proof.Algebra.lean ====
/-
  The algebra that joins "transform every message, then sum by receiving node" to "sum node rows by receiving node,
  then transform the sums", and a mean taken by division to a mean taken by multiplying with a reciprocal.

  Everything is over the extended reals, where a product does not distribute over a sum in general (∞ − ∞); it does
  when every entry is a real number, which is why the node rows and the weights are asked to be finite.
  A count of messages is a natural number `k`; where `k = 0` the mean is replaced by `0`, and `s · 0 = 0` for every
  extended real `s`; where `k ≥ 1`, `s / k = s · (1 / k)`.
-/
import Idealize.ShloMosaic.PureOps.Ideal
import Idealize.ShloMosaic.PureOps.Ideal.Laws
import Idealize.ShloMosaic.Lib.ValueIdx
import Idealize.ShloMosaic.Lib.IdealHost
import Mathlib.Data.BitVec

noncomputable section

open scoped BigOperators

namespace Cert.Algebra

open Idealize.ShloMosaic Idealize.ShloMosaic.ValueIdx

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- LINEARITY. Summing, over the selected edges, each edge's row times a weight column equals the selected rows' sum
    times that column, when rows and weights are real. (The `0 +` is the zero the accumulation starts from.) -/
theorem weights_after_sum {E K : Nat} (hit : Fin E → Prop) [DecidablePred hit]
    (a : Fin E → Fin K → EReal) (w : Fin K → EReal)
    (ha : ∀ e k, ∃ r : ℝ, a e k = (r : EReal)) (hw : ∀ k, ∃ r : ℝ, w k = (r : EReal)) :
    ∑ e, (if hit e then ∑ k, a e k * w k else 0) = ∑ k, (0 + ∑ e, if hit e then a e k else 0) * w k := by
  choose ar har using ha
  choose wr hwr using hw
  have hl : ∀ e, (if hit e then ∑ k, a e k * w k else 0) = ((if hit e then ∑ k, ar e k * wr k else 0 : ℝ) : EReal) := by
    intro e
    split_ifs
    · rw [coe_sum]; exact Finset.sum_congr rfl fun k _ => by rw [har, hwr, EReal.coe_mul]
    · exact EReal.coe_zero.symm
  have hr : ∀ k, (0 + ∑ e, if hit e then a e k else 0) * w k
      = (((∑ e, if hit e then ar e k else 0) * wr k : ℝ) : EReal) := by
    intro k
    rw [zero_add, EReal.coe_mul, coe_sum, hwr]
    congr 1
    refine Finset.sum_congr rfl fun e _ => ?_
    split_ifs
    · exact har e k
    · exact EReal.coe_zero.symm
  rw [Finset.sum_congr rfl fun e _ => hl e, Finset.sum_congr rfl fun k _ => hr k, ← coe_sum, ← coe_sum]
  congr 1
  simp only [Finset.sum_mul]
  rw [Finset.sum_comm]
  refine Finset.sum_congr rfl fun e _ => ?_
  by_cases h : hit e <;> simp [h]

/-- A sum of real entries is real. -/
theorem sum_real {ι : Type} (s : Finset ι) (f : ι → EReal) (hf : ∀ i, ∃ r : ℝ, f i = (r : EReal)) :
    ∃ r : ℝ, ∑ i ∈ s, f i = (r : EReal) := by
  choose fr hfr using hf
  exact ⟨∑ i ∈ s, fr i, by rw [coe_sum]; exact Finset.sum_congr rfl fun i _ => hfr i⟩

/-- COUNTING. A sum of ones over the selected indices is the number selected, as a real. -/
theorem sum_ones {E : Nat} (hit : Fin E → Prop) [DecidablePred hit] :
    (∑ e : Fin E, if hit e then (1 : EReal) else 0) = (((Finset.univ.filter hit).card : ℝ) : EReal) := by
  have : ∀ e : Fin E, (if hit e then (1 : EReal) else 0) = ((if hit e then (1 : ℝ) else 0 : ℝ) : EReal) := by
    intro e; split_ifs
    · exact EReal.coe_one.symm
    · exact EReal.coe_zero.symm
  rw [Finset.sum_congr rfl fun e _ => this e, ← coe_sum, Finset.sum_boole]

/-- The same count in 32-bit words. -/
theorem sum_ones_word {E : Nat} (hit : Fin E → Prop) [DecidablePred hit] :
    (∑ e : Fin E, if hit e then (1#32 : BitVec 32) else 0#32) = BitVec.ofNat 32 (Finset.univ.filter hit).card := by
  have h := Finset.sum_boole (R := BitVec 32) hit (Finset.univ : Finset (Fin E))
  rw [← BitVec.natCast_eq_ofNat]
  exact h

/-- A count below 2³¹ read back signed from its 32-bit word is itself. -/
theorem toInt_ofNat_small (k : Nat) (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- THE MEAN BY A RECIPROCAL. With `k` messages: the sum divided by `max k 1`, replaced by `0` where `k = 0`, equals the
    sum times (the reciprocal of `max k 1`, replaced by `0` where `k = 0`) — for every extended real sum. -/
theorem mean_by_reciprocal (s : EReal) (k : Nat) :
    Scalar.select (Ideal.cmp .ogt ((k : ℝ) : EReal) 0) (Ideal.div s (max ((k : ℝ) : EReal) 1)) (0 : EReal)
      = s * Scalar.select (Ideal.cmp .ogt ((k : ℝ) : EReal) 0) (Ideal.div 1 (max ((k : ℝ) : EReal) 1)) (0 : EReal) := by
  rcases Nat.eq_zero_or_pos k with rfl | hk
  · have : Ideal.cmp .ogt (((0 : Nat) : ℝ) : EReal) 0 = 0#1 := by
      simp [Ideal.cmp]
    rw [this, select_zero, select_zero, mul_zero]
  · have hk' : (0 : ℝ) < (k : ℝ) := by exact_mod_cast hk
    have hk1 : (1 : ℝ) ≤ (k : ℝ) := by exact_mod_cast hk
    have hc : Ideal.cmp .ogt ((k : ℝ) : EReal) 0 = 1#1 := by
      have : (0 : EReal) < ((k : ℝ) : EReal) := by exact_mod_cast hk'
      simp [Ideal.cmp, hk]
    have hm : max ((k : ℝ) : EReal) 1 = ((k : ℝ) : EReal) := max_eq_left (by exact_mod_cast hk1)
    rw [hc, select_one, select_one, hm, Ideal.div_coe (ne_of_gt hk'), Ideal.div_coe (ne_of_gt hk'), one_mul]

end Cert.Algebra

end
-- ==== Proof.Spec.lean ====
/-
  The layer's output entry as one formula, and the form in which the reference computes it.

  A node `n` receives one message per edge end at `n`: along an edge `e` with destination `n` the source's row through
  `W1`, along an edge with source `n` the destination's row through `W2`.  With `rowSum` the sum of the rows sent to
  `n` (from a zero start) and `ends` the number of edge ends at `n`, the output entry `(n, c)` is

      max( Σ_k N(n,k)·W0(c,k) + ( Σ_k rowSum₁(n,k)·W1(c,k) + Σ_k rowSum₂(n,k)·W2(c,k) ) · [ends > 0 ? 1 / max(ends, 1) : 0], 0 ).

  The reference instead transforms each message first, sums the transformed messages, counts by summing ones, and
  divides; `ref_form` shows that this is the same number when the gathered rows and the weights are finite
  (linearity of the finite sums, and a mean by a reciprocal).
-/
import proofs.«181108_j50620484550703_2_alg».proof.Proof.Algebra

noncomputable section

open scoped BigOperators

namespace Cert.Spec

open Idealize.ShloMosaic Idealize.ShloMosaic.ValueIdx

/-- Entry `e` of a list of node numbers names node `n` (read signed, as the accumulation reads it). -/
def hits (rows : (⟨1, ![600000]⟩ : Shape).Idx → BitVec 32) (n : Fin 50000) (e : Fin 600000) : Prop :=
  (rows (ix1 e)).toInt = (n.val : Int)

instance (rows : (⟨1, ![600000]⟩ : Shape).Idx → BitVec 32) (n : Fin 50000) : DecidablePred (hits rows n) :=
  fun _ => Int.instDecidableEq _ _

/-- The number of edge ends at node `n`. -/
def ends (dst src : (⟨1, ![600000]⟩ : Shape).Idx → BitVec 32) (n : Fin 50000) : ℕ :=
  (Finset.univ.filter (hits dst n)).card + (Finset.univ.filter (hits src n)).card

/-- Entry `k` of the sum of the edge rows `X` sent to node `n`, accumulated from zero. -/
def rowSum (X : (⟨2, ![600000, 128]⟩ : Shape).Idx → EReal) (rows : (⟨1, ![600000]⟩ : Shape).Idx → BitVec 32)
    (n : Fin 50000) (k : Fin 128) : EReal :=
  0 + ∑ e : Fin 600000, if hits rows n e then X (ix2 e k) else 0

/-- The output entry `(n, c)`. -/
def specAt (N : (⟨2, ![50000, 128]⟩ : Shape).Idx → EReal) (dst src : (⟨1, ![600000]⟩ : Shape).Idx → BitVec 32)
    (X1 X2 : (⟨2, ![600000, 128]⟩ : Shape).Idx → EReal) (W0 W1 W2 : (⟨2, ![128, 128]⟩ : Shape).Idx → EReal)
    (n : Fin 50000) (c : Fin 128) : EReal :=
  max ((∑ k : Fin 128, N (ix2 n k) * W0 (ix2 c k))
      + ((∑ k : Fin 128, rowSum X1 dst n k * W1 (ix2 c k)) + ∑ k : Fin 128, rowSum X2 src n k * W2 (ix2 c k))
        * Scalar.select (Ideal.cmp .ogt ((ends dst src n : ℝ) : EReal) 0)
            (Ideal.div 1 (max ((ends dst src n : ℝ) : EReal) 1)) (0 : EReal))
    0

/-- THE REFERENCE'S FORM: messages transformed per edge and summed, ones summed for the count, a division. -/
theorem ref_form (N : (⟨2, ![50000, 128]⟩ : Shape).Idx → EReal) (dst src : (⟨1, ![600000]⟩ : Shape).Idx → BitVec 32)
    (X1 X2 : (⟨2, ![600000, 128]⟩ : Shape).Idx → EReal) (W0 W1 W2 : (⟨2, ![128, 128]⟩ : Shape).Idx → EReal)
    (n : Fin 50000) (c : Fin 128)
    (hX1 : ∀ i, ∃ r : ℝ, X1 i = (r : EReal)) (hX2 : ∀ i, ∃ r : ℝ, X2 i = (r : EReal))
    (hW1 : ∀ i, ∃ r : ℝ, W1 i = (r : EReal)) (hW2 : ∀ i, ∃ r : ℝ, W2 i = (r : EReal)) :
    max ((∑ k : Fin 128, N (ix2 n k) * W0 (ix2 c k))
        + Scalar.select
            (Ideal.cmp .ogt (0 + ((∑ e : Fin 600000, if hits dst n e then (1 : EReal) else 0)
              + ∑ e : Fin 600000, if hits src n e then (1 : EReal) else 0)) 0)
            (Ideal.div
              (0 + ((∑ e : Fin 600000, if hits dst n e then ∑ k : Fin 128, X1 (ix2 e k) * W1 (ix2 c k) else 0)
                + ∑ e : Fin 600000, if hits src n e then ∑ k : Fin 128, X2 (ix2 e k) * W2 (ix2 c k) else 0))
              (max (0 + ((∑ e : Fin 600000, if hits dst n e then (1 : EReal) else 0)
                + ∑ e : Fin 600000, if hits src n e then (1 : EReal) else 0)) 1))
            (0 : EReal))
      0
      = specAt N dst src X1 X2 W0 W1 W2 n c := by
  have hc : (0 : EReal) + ((∑ e : Fin 600000, if hits dst n e then (1 : EReal) else 0)
      + ∑ e : Fin 600000, if hits src n e then (1 : EReal) else 0) = ((ends dst src n : ℝ) : EReal) := by
    rw [zero_add, Cert.Algebra.sum_ones, Cert.Algebra.sum_ones, ← EReal.coe_add, ← Nat.cast_add]
    rfl
  have h1 := Cert.Algebra.weights_after_sum (hits dst n) (fun e k => X1 (ix2 e k)) (fun k => W1 (ix2 c k))
    (fun e k => hX1 _) (fun k => hW1 _)
  have h2 := Cert.Algebra.weights_after_sum (hits src n) (fun e k => X2 (ix2 e k)) (fun k => W2 (ix2 c k))
    (fun e k => hX2 _) (fun k => hW2 _)
  rw [hc, zero_add, h1, h2, Cert.Algebra.mean_by_reciprocal]
  rfl

end Cert.Spec

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.KernelAt.lean ====
/-
  The kernel program's result read at an entry.

  The fused kernel's entry `(n, c)` is built from entries of the arrays the host operations prepare, and each of those
  reads as a finite sum or a count: an aggregate's entry `(n, k)` is the sum of the gathered rows' entries over the
  edges that name node `n`; the 32-bit count of such edges is their number (far below 2³¹, so converting the sum of the
  two counts to a float loses nothing); a transposed weight matrix reads at the swapped coordinates.  Substituting
  these gives exactly the specification.
-/
import proofs.«181108_j50620484550703_2_alg».proof.Proof.KernelHost
import proofs.«181108_j50620484550703_2_alg».proof.Proof.Spec
import proofs.«181108_j50620484550703_2_alg».proof.Proof.LibScatterRows
import proofs.«181108_j50620484550703_2_alg».proof.Proof.LibJoinedRows
import Idealize.ShloMosaic.Lib.IdealHost
import Idealize.ShloMosaic.Lib.ValueLayout

noncomputable section

open scoped BigOperators

namespace Cert.KernelAt

open Cert.KernelIdeal Cert.KernelHost Cert.Spec Idealize.ShloMosaic Idealize.ShloMosaic.ValueIdx
open Cert.LibScatterRows Cert.LibJoinedRows
open Cert.KernelIdeal.Facts₀

/-- A zero constant spread over a shape reads zero. -/
theorem zeros_apply {t : Shape} (h : S_.BroadcastsInDim t (![] : Fin 0 → Fin t.rank)) (j : t.Idx) :
    broadcastInDim t ![] h (constant (F := Ideal) S_ .f32 0x00000000#32) j = (0 : EReal) := by
  rw [bcast_scalar_apply, constant_apply, Ideal.ofBits_zero_f32]

/-- A one constant spread over a shape reads one. -/
theorem ones_apply {t : Shape} (h : S_.BroadcastsInDim t (![] : Fin 0 → Fin t.rank)) (j : t.Idx) :
    broadcastInDim t ![] h (constant (F := Ideal) S_ .f32 0x3F800000#32) j = (1 : EReal) := by
  rw [bcast_scalar_apply, constant_apply, Ideal.ofBits_one_f32]

/-- A transposed weight matrix reads the matrix at the swapped coordinates. -/
theorem wT_apply (W : FVec Ideal S128x128 .f32) (k c : Fin 128) : wT W (ix2 k c) = W (ix2 c k) := by
  unfold wT
  rw [transpose2_apply]

/-- An aggregate's entry is the sum of the rows sent to the node. -/
theorem agg_apply (X : FVec Ideal S600000x128 .f32) (rows : IVec S600000 32) (n : Fin 50000) (k : Fin 128) :
    agg X rows (ix2 n k) = rowSum X rows n k := by
  unfold agg
  refine (host_scatterAdd_rows_apply scatter_S50000x128_S600000x1_S600000x128_1_0_0_1_wf
    scatter_S50000x128_S600000x1_S600000x128_1_0_0_1 rfl _ _ _ n k).trans ?_
  rw [zeros_apply]
  unfold rowSum
  refine congrArg (fun s : EReal => (0 : EReal) + s) (Finset.sum_congr rfl fun e _ => ?_)
  unfold rowCol
  rw [bcast_vec_col_apply]
  rfl

/-- The 32-bit count of the list's entries that name node `n` is their number. -/
theorem cntWord_apply (rows : IVec S600000 32) (n : Fin 50000) :
    cntWord rows (ix1 n) = BitVec.ofNat 32 (Finset.univ.filter (hits rows n)).card := by
  unfold cntWord
  refine (host_scatter_add_vec_apply scatter_S50000_S600000x1_S600000_n_0_0_1_wf
    scatter_S50000_S600000x1_S600000_n_0_0_1 rfl IntOp.addi (fun _ _ => rfl) _ _ _ n).trans ?_
  rw [bcast_scalar_apply, constantI_apply, ← Cert.Algebra.sum_ones_word (hits rows n), BitVec.zero_add]
  refine Finset.sum_congr rfl fun e _ => ?_
  unfold rowCol
  rw [bcast_vec_col_apply, bcast_scalar_apply, constantI_apply]
  rfl

/-- The number of edge ends at node `n`, converted to a float, is that number. -/
theorem cntCol_apply (E : IVec S2x600000 32) (n : Fin 50000) :
    cntCol E (ix2 n (0 : Fin 1)) = ((ends (edgeDst E) (edgeSrc E) n : ℝ) : EReal) := by
  unfold cntCol
  rw [bcast_vec_col_apply]
  show (((IntOp.addi (cntWord (edgeDst E) (ix1 n)) (cntWord (edgeSrc E) (ix1 n))).toInt : ℝ) : EReal) = _
  rw [cntWord_apply, cntWord_apply]
  show (((BitVec.ofNat 32 (Finset.univ.filter (hits (edgeDst E) n)).card
    + BitVec.ofNat 32 (Finset.univ.filter (hits (edgeSrc E) n)).card).toInt : ℝ) : EReal) = _
  have hd : (Finset.univ.filter (hits (edgeDst E) n)).card ≤ 600000 :=
    (Finset.card_filter_le _ _).trans (by rw [Finset.card_univ, Fintype.card_fin])
  have hs : (Finset.univ.filter (hits (edgeSrc E) n)).card ≤ 600000 :=
    (Finset.card_filter_le _ _).trans (by rw [Finset.card_univ, Fintype.card_fin])
  rw [← BitVec.ofNat_add, Cert.Algebra.toInt_ofNat_small _ (by omega)]
  unfold ends
  push_cast
  rfl

/-- The reciprocal-count column at node `n`. -/
theorem invCnt_apply (E : IVec S2x600000 32) (n : Fin 50000) :
    invCnt E (ix2 n (0 : Fin 1))
      = Scalar.select (Ideal.cmp .ogt ((ends (edgeDst E) (edgeSrc E) n : ℝ) : EReal) 0)
          (Ideal.div 1 (max ((ends (edgeDst E) (edgeSrc E) n : ℝ) : EReal) 1)) (0 : EReal) := by
  unfold invCnt
  rw [select_apply]
  show Scalar.select
      (Ideal.cmp .ogt (cntCol E (ix2 n (0 : Fin 1)))
        (broadcastInDim S50000x1 ![] bcast_S_S50000x1 (constant (F := Ideal) S_ .f32 0x00000000#32) (ix2 n (0 : Fin 1))))
      (Ideal.div (broadcastInDim S50000x1 ![] bcast_S_S50000x1 (constant (F := Ideal) S_ .f32 0x3F800000#32) (ix2 n (0 : Fin 1)))
        (max (cntCol E (ix2 n (0 : Fin 1)))
          (broadcastInDim S50000x1 ![] bcast_S_S50000x1 (constant (F := Ideal) S_ .f32 0x3F800000#32) (ix2 n (0 : Fin 1)))))
      (broadcastInDim S50000x1 ![] bcast_S_S50000x1 (constant (F := Ideal) S_ .f32 0x00000000#32) (ix2 n (0 : Fin 1))) = _
  rw [cntCol_apply, zeros_apply, ones_apply]

/-- THE KERNEL PROGRAM AT AN ENTRY is the specification. -/
theorem kerOut_apply (N : FVec Ideal S50000x128 .f32) (E : IVec S2x600000 32) (W0 W1 W2 : FVec Ideal S128x128 .f32)
    (n : Fin 50000) (c : Fin 128) :
    kerOut N E W0 W1 W2 (ix2 n c)
      = specAt N (edgeDst E) (edgeSrc E) (gathered N (edgeSrc E)) (gathered N (edgeDst E)) W0 W1 W2 n c := by
  show Cert.KernelValue.fusedAt N (agg (gathered N (edgeSrc E)) (edgeDst E)) (agg (gathered N (edgeDst E)) (edgeSrc E))
    (invCnt E) (wT W0) (wT W1) (wT W2) n c = _
  unfold Cert.KernelValue.fusedAt specAt
  rw [invCnt_apply, Ideal.ofBits_zero_f32]
  simp only [agg_apply, wT_apply]

end Cert.KernelAt

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.RefRun.lean ====
/-
  The reference program's run, read back.

  The reference is a straight line of 57 host operations (the two functions it calls, a selection and a rectifier,
  stand inline at their calls).  Every weakly fair execution of such a line terminates, each buffer holding its
  operation's function of its operands' contents; composing them, the result buffer holds one term of the five
  arguments.  That term is named here in the pieces the mathematics uses: the two rows of the edge list, the row
  numbers wrapped for the gather, the gathered node rows, the per-edge messages joined, their accumulation by
  receiving node, the count of messages per node, and the mean-and-rectify at the end.
-/
import proofs.«181108_j50620484550703_2_alg».proof.Proof.Gen.ReferenceIdeal
import proofs.«181108_j50620484550703_2_alg».proof.Proof.LibHostReads
import Idealize.ShloMosaic.Lib.StableHlo.Run
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo
open Cert.LibHostReads

section Ops
variable {F : FTy → Type} [FloatOps F]

/-- @main's 57 operations, in order (a called function's operations stand in its call's place). -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg3 main_v11 ((transpose S128x128 [1, 0] · transposes_S128x128_S128x128_1_0) : (⟨S128x128, .f32⟩ : BufTy).Contents (Elt F) → (⟨S128x128, .f32⟩ : BufTy).Contents (Elt F)),
    binary main_v10 main_v11 main_v12 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    nullary main_c_1 (constantI S_ 32 0#32),
    unary main_c_1 main_v13 (broadcastInDim S600000 ![] bcast_S_S600000 : (⟨S_, .i32⟩ : BufTy).Contents (Elt F) → (⟨S600000, .i32⟩ : BufTy).Contents (Elt F)),
    binary main_v3 main_v13 main_v14 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v15 (broadcastInDim S600000 ![] bcast_S_S600000 : (⟨S_, .i32⟩ : BufTy).Contents (Elt F) → (⟨S600000, .i32⟩ : BufTy).Contents (Elt F)),
    binary main_v3 main_v15 main_v16 (addi : (⟨S600000, .i32⟩ : BufTy).Contents (Elt F) → (⟨S600000, .i32⟩ : BufTy).Contents (Elt F) → (⟨S600000, .i32⟩ : BufTy).Contents (Elt F)),
    ternary main_v14 main_v16 main_v3 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v17 main_v18 (broadcastInDim S600000x1 ![0] bcast_S600000_S600000x1_0 : (⟨S600000, .i32⟩ : BufTy).Contents (Elt F) → (⟨S600000x1, .i32⟩ : BufTy).Contents (Elt F)),
    binary main_arg0 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg4 main_v20 ((transpose S128x128 [1, 0] · transposes_S128x128_S128x128_1_0) : (⟨S128x128, .f32⟩ : BufTy).Contents (Elt F) → (⟨S128x128, .f32⟩ : BufTy).Contents (Elt F)),
    binary main_v19 main_v20 main_v21 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    binary main_v12 main_v21 main_v22 ((fun a b => concatenate S1200000x128 0 [⟨S600000x128, a⟩, ⟨S600000x128, b⟩] concatenates_S600000x128_S600000x128_S1200000x128_d0) : (⟨S600000x128, .f32⟩ : BufTy).Contents (Elt F) → (⟨S600000x128, .f32⟩ : BufTy).Contents (Elt F) → (⟨S1200000x128, .f32⟩ : BufTy).Contents (Elt F)),
    binary main_v3 main_v1 main_v23 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)),
    nullary main_cst (constant S_ .f32 0x00000000#32),
    unary main_cst main_v24 (broadcastInDim S50000x128 ![] bcast_S_S50000x128 : (⟨S_, .f32⟩ : BufTy).Contents (Elt F) → (⟨S50000x128, .f32⟩ : BufTy).Contents (Elt F)),
    unary main_v23 main_v25 (broadcastInDim S1200000x1 ![0] bcast_S1200000_S1200000x1_0 : (⟨S1200000, .i32⟩ : BufTy).Contents (Elt F) → (⟨S1200000x1, .i32⟩ : BufTy).Contents (Elt F)),
    ternary main_v24 main_v25 main_v22 main_v26 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_3 (constant S_ .f32 0x3F800000#32),
    unary main_cst_3 main_v27 (broadcastInDim S1200000x1 ![] bcast_S_S1200000x1 : (⟨S_, .f32⟩ : BufTy).Contents (Elt F) → (⟨S1200000x1, .f32⟩ : BufTy).Contents (Elt F)),
    nullary main_cst_4 (constant S_ .f32 0x00000000#32),
    unary main_cst_4 main_v28 (broadcastInDim S50000x1 ![] bcast_S_S50000x1 : (⟨S_, .f32⟩ : BufTy).Contents (Elt F) → (⟨S50000x1, .f32⟩ : BufTy).Contents (Elt F)),
    unary main_v23 main_v29 (broadcastInDim S1200000x1 ![0] bcast_S1200000_S1200000x1_0 : (⟨S1200000, .i32⟩ : BufTy).Contents (Elt F) → (⟨S1200000x1, .i32⟩ : BufTy).Contents (Elt F)),
    ternary main_v28 main_v29 main_v27 main_v30 ((fun x i u => Host.scatterAdd scatter_S50000x1_S1200000x1_S1200000x1_1_0_0_1 x i u) : (⟨S50000x1, .f32⟩ : BufTy).Contents (Elt F) → (⟨S1200000x1, .i32⟩ : BufTy).Contents (Elt F) → (⟨S1200000x1, .f32⟩ : BufTy).Contents (Elt F) → (⟨S50000x1, .f32⟩ : BufTy).Contents (Elt F)),
    nullary main_cst_5 (constant S_ .f32 0x00000000#32),
    unary main_cst_5 main_v31 (broadcastInDim S50000x1 ![] bcast_S_S50000x1 : (⟨S_, .f32⟩ : BufTy).Contents (Elt F) → (⟨S50000x1, .f32⟩ : BufTy).Contents (Elt F)),
    binary main_v30 main_v31 main_v32 (cmpf .ogt : (⟨S50000x1, .f32⟩ : BufTy).Contents (Elt F) → (⟨S50000x1, .f32⟩ : BufTy).Contents (Elt F) → (⟨S50000x1, .i1⟩ : BufTy).Contents (Elt F)),
    nullary main_cst_6 (constant S_ .f32 0x3F800000#32),
    unary main_cst_6 main_v33 (broadcastInDim S50000x1 ![] bcast_S_S50000x1 : (⟨S_, .f32⟩ : BufTy).Contents (Elt F) → (⟨S50000x1, .f32⟩ : BufTy).Contents (Elt F)),
    binary main_v30 main_v33 main_v34 (maximumf : (⟨S50000x1, .f32⟩ : BufTy).Contents (Elt F) → (⟨S50000x1, .f32⟩ : BufTy).Contents (Elt F) → (⟨S50000x1, .f32⟩ : BufTy).Contents (Elt F)),
    unary main_v34 main_v35 (broadcastInDim S50000x128 ![0, 1] bcast_S50000x1_S50000x128_0_1 : (⟨S50000x1, .f32⟩ : BufTy).Contents (Elt F) → (⟨S50000x128, .f32⟩ : BufTy).Contents (Elt F)),
    binary main_v26 main_v35 main_v36 (Host.divf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    unary main_cst_7 main_call0_v0 (id : (⟨S_, .f32⟩ : BufTy).Contents (Elt F) → (⟨S_, .f32⟩ : BufTy).Contents (Elt F)),
    unary main_v32 main_call0_v1 (broadcastInDim S50000x128 ![0, 1] bcast_S50000x1_S50000x128_0_1 : (⟨S50000x1, .i1⟩ : BufTy).Contents (Elt F) → (⟨S50000x128, .i1⟩ : BufTy).Contents (Elt F)),
    unary main_call0_v0 main_call0_v2 (broadcastInDim S50000x128 ![] bcast_S_S50000x128 : (⟨S_, .f32⟩ : BufTy).Contents (Elt F) → (⟨S50000x128, .f32⟩ : BufTy).Contents (Elt F)),
    ternary main_call0_v1 main_v36 main_call0_v2 main_v37 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    unary main_arg2 main_v38 ((transpose S128x128 [1, 0] · transposes_S128x128_S128x128_1_0) : (⟨S128x128, .f32⟩ : BufTy).Contents (Elt F) → (⟨S128x128, .f32⟩ : BufTy).Contents (Elt F)),
    binary main_arg0 main_v38 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v39 main_v37 main_v40 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v40 main_call1_v0 main_v41 (maximumf : (⟨S50000x128, .f32⟩ : BufTy).Contents (Elt F) → (⟨S50000x128, .f32⟩ : BufTy).Contents (Elt F) → (⟨S50000x128, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., unary_bufs_sub .., binary_bufs_sub .., binary_bufs_sub .., nullary_bufs_sub .., unary_bufs_sub .., binary_bufs_sub ..⟩

end Ops

/-! ## The result as one term of the arguments, in named pieces (at the ideal values) -/

/-- Row 0 of the edge list: each edge's source node. -/
def edgeSrc (E : IVec S2x600000 32) : IVec S600000 32 :=
  shapeCast _ (extractStridedSlice S1x600000 ![0, 0] E slices_S2x600000_S1x600000_0_0) shapeCasts_S1x600000_S600000
/-- Row 1 of the edge list: each edge's destination node. -/
def edgeDst (E : IVec S2x600000 32) : IVec S600000 32 :=
  shapeCast _ (extractStridedSlice S1x600000 ![1, 0] E slices_S2x600000_S1x600000_1_0) shapeCasts_S1x600000_S600000
/-- Node numbers made ready for a gather: a negative number counts from the end, and the list becomes a column. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)
/-- The node rows the listed numbers name, one per edge. -/
def gathered (N : FVec Ideal S50000x128 .f32) (v : IVec S600000 32) : FVec Ideal S600000x128 .f32 :=
  Host.gather gather_S50000x128_S600000x1_S600000x128_1_0_n_n_0_1_1128 N (wrapCol v)
/-- The receiving node of each of the 2·E messages: destinations first, then sources; as a column. -/
def recvCol (E : IVec S2x600000 32) : IVec S1200000x1 32 :=
  broadcastInDim S1200000x1 ![0] bcast_S1200000_S1200000x1_0
    (concatenate S1200000 0 [⟨S600000, edgeDst E⟩, ⟨S600000, edgeSrc E⟩] concatenates_S600000_S600000_S1200000_d0)
/-- The 2·E messages: each edge's source row through the forward weights, then each edge's destination row through
    the backward weights. -/
def messages (N : FVec Ideal S50000x128 .f32) (E : IVec S2x600000 32) (W1 W2 : FVec Ideal S128x128 .f32) :
    FVec Ideal S1200000x128 .f32 :=
  concatenate S1200000x128 0
    [⟨S600000x128, Host.dotGeneral dot_S600000x128_S128x128_S600000x128_1_0_0_1_n_n none (gathered N (edgeSrc E))
        (transpose S128x128 [1, 0] W1 transposes_S128x128_S128x128_1_0)⟩,
     ⟨S600000x128, Host.dotGeneral dot_S600000x128_S128x128_S600000x128_1_0_0_1_n_n none (gathered N (edgeDst E))
        (transpose S128x128 [1, 0] W2 transposes_S128x128_S128x128_1_0)⟩]
    concatenates_S600000x128_S600000x128_S1200000x128_d0
/-- The messages summed by receiving node. -/
def segSum (N : FVec Ideal S50000x128 .f32) (E : IVec S2x600000 32) (W1 W2 : FVec Ideal S128x128 .f32) :
    FVec Ideal S50000x128 .f32 :=
  Host.scatterAdd scatter_S50000x128_S1200000x1_S1200000x128_1_0_0_1
    (broadcastInDim S50000x128 ![] bcast_S_S50000x128 (constant S_ .f32 0x00000000#32)) (recvCol E) (messages N E W1 W2)
/-- The number of messages each node receives, as a float column. -/
def segCnt (E : IVec S2x600000 32) : FVec Ideal S50000x1 .f32 :=
  Host.scatterAdd scatter_S50000x1_S1200000x1_S1200000x1_1_0_0_1
    (broadcastInDim S50000x1 ![] bcast_S_S50000x1 (constant S_ .f32 0x00000000#32)) (recvCol E)
    (broadcastInDim S1200000x1 ![] bcast_S_S1200000x1 (constant S_ .f32 0x3F800000#32))
/-- The reference's result: the node's own row through `W0` plus the mean message (zero where none arrives), rectified. -/
def refOut (N : FVec Ideal S50000x128 .f32) (E : IVec S2x600000 32) (W0 W1 W2 : FVec Ideal S128x128 .f32) :
    FVec Ideal S50000x128 .f32 :=
  maximumf
    (addf (Host.dotGeneral dot_S50000x128_S128x128_S50000x128_1_0_0_1_n_n none N (transpose S128x128 [1, 0] W0 transposes_S128x128_S128x128_1_0))
      (select
        (broadcastInDim S50000x128 ![0, 1] bcast_S50000x1_S50000x128_0_1
          (cmpf .ogt (segCnt E) (broadcastInDim S50000x1 ![] bcast_S_S50000x1 (constant S_ .f32 0x00000000#32))))
        (Host.divf (segSum N E W1 W2)
          (broadcastInDim S50000x128 ![0, 1] bcast_S50000x1_S50000x128_0_1
            (maximumf (segCnt E) (broadcastInDim S50000x1 ![] bcast_S_S50000x1 (constant S_ .f32 0x3F800000#32)))))
        (broadcastInDim S50000x128 ![] bcast_S_S50000x128 (id (constant (F := Ideal) S_ .f32 0x00000000#32)))))
    (broadcastInDim S50000x128 ![] bcast_S_S50000x128 (constant S_ .f32 0x00000000#32))

set_option maxRecDepth 8192 in
set_option maxHeartbeats 4000000 in
/-- Every weakly fair execution of the reference terminates with its result at `refOut` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
        = refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (by
        after_results_simp
        host_reads
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.RefRun

end
-- ==== Proof.RefAt.lean ====
/-
  The reference's result read at an entry.

  Entry `(n, c)` of the reference's result is the rectified sum of the node's own row through `W0` and the mean
  message, and each ingredient reads at an entry as a finite sum: a matrix product as the sum over the contracted axis; an
  accumulation by receiving node as the sum over the updates that name the node; the joined list of 2·E receivers and
  messages as destinations-then-sources.  Put together this is the reference's form of the specification, which
  equals the specification when node rows and weights are finite.
-/
import proofs.«181108_j50620484550703_2_alg».proof.Proof.RefRun
import proofs.«181108_j50620484550703_2_alg».proof.Proof.Spec
import proofs.«181108_j50620484550703_2_alg».proof.Proof.LibPlainDot
import proofs.«181108_j50620484550703_2_alg».proof.Proof.LibScatterRows
import proofs.«181108_j50620484550703_2_alg».proof.Proof.LibJoinedRows
import Idealize.ShloMosaic.Lib.IdealHost

noncomputable section

open scoped BigOperators

namespace Cert.RefAt

open Cert.ReferenceIdeal Cert.RefRun Cert.Spec Idealize.ShloMosaic Idealize.ShloMosaic.ValueIdx
open Cert.LibScatterRows Cert.LibJoinedRows
open Cert.ReferenceIdeal.Facts₀

theorem plainE : Cert.LibPlainDot.Plain dot_S600000x128_S128x128_S600000x128_1_0_0_1_n_n := ⟨rfl, rfl, rfl, rfl, rfl, rfl⟩
theorem plainN : Cert.LibPlainDot.Plain dot_S50000x128_S128x128_S50000x128_1_0_0_1_n_n := ⟨rfl, rfl, rfl, rfl, rfl, rfl⟩

/-- A zero constant spread over a shape reads zero. -/
theorem zeros_apply {t : Shape} (h : S_.BroadcastsInDim t (![] : Fin 0 → Fin t.rank)) (j : t.Idx) :
    broadcastInDim t ![] h (constant (F := Ideal) S_ .f32 0x00000000#32) j = (0 : EReal) := by
  rw [bcast_scalar_apply, constant_apply, Ideal.ofBits_zero_f32]

/-- A one constant spread over a shape reads one. -/
theorem ones_apply {t : Shape} (h : S_.BroadcastsInDim t (![] : Fin 0 → Fin t.rank)) (j : t.Idx) :
    broadcastInDim t ![] h (constant (F := Ideal) S_ .f32 0x3F800000#32) j = (1 : EReal) := by
  rw [bcast_scalar_apply, constant_apply, Ideal.ofBits_one_f32]

/-- The same through the identity conversion a selection's scalar operand passes through. -/
theorem zeros_id_apply {t : Shape} (h : S_.BroadcastsInDim t (![] : Fin 0 → Fin t.rank)) (j : t.Idx) :
    broadcastInDim t ![] h (id (constant (F := Ideal) S_ .f32 0x00000000#32)) j = (0 : EReal) := zeros_apply h j

/-- A host quotient of arrays reads the quotient of the entries. -/
theorem hostDivf_apply {s : Shape} (a b : FVec Ideal s .f32) (i : s.Idx) : Host.divf a b i = Ideal.div (a i) (b i) := rfl

/-- A comparison of arrays reads the comparison of the entries. -/
theorem cmpf_ideal_apply {s : Shape} (p : CmpFPredicate) (a b : FVec Ideal s .f32) (i : s.Idx) :
    cmpf p a b i = Ideal.cmp p (a i) (b i) := rfl

/-- The first E receivers are the destinations … -/
theorem recvCol_left (E : IVec S2x600000 32) (e : Fin 600000) (h : e.val < 1200000) :
    recvCol E (rowIdx (⟨e.val, h⟩ : Fin 1200000)) = edgeDst E (ix1 e) := by
  unfold recvCol
  rw [bcast_vec_col_apply]
  exact join_vec_left _ _ _ e h

/-- … the last E the sources. -/
theorem recvCol_right (E : IVec S2x600000 32) (e : Fin 600000) (h : 600000 + e.val < 1200000) :
    recvCol E (rowIdx (⟨600000 + e.val, h⟩ : Fin 1200000)) = edgeSrc E (ix1 e) := by
  unfold recvCol
  rw [bcast_vec_col_apply]
  exact join_vec_right _ _ _ e h

/-- A product with a transposed weight matrix, at an entry. -/
theorem dotE_apply (X : FVec Ideal S600000x128 .f32) (W : FVec Ideal S128x128 .f32) (e : Fin 600000) (c : Fin 128) :
    Host.dotGeneral dot_S600000x128_S128x128_S600000x128_1_0_0_1_n_n none X
        (transpose S128x128 [1, 0] W transposes_S128x128_S128x128_1_0) (ix2 e c)
      = ∑ k : Fin 128, X (ix2 e k) * W (ix2 c k) := by
  refine (plainE.dotGeneral_apply none .single X _ e c).trans ?_
  exact Finset.sum_congr rfl fun k _ => by rw [transpose2_apply]

/-- The first E messages are the sources' rows through `W1` … -/
theorem messages_left (N : FVec Ideal S50000x128 .f32) (E : IVec S2x600000 32) (W1 W2 : FVec Ideal S128x128 .f32)
    (e : Fin 600000) (h : e.val < 1200000) (c : Fin 128) :
    messages N E W1 W2 (ix2 (⟨e.val, h⟩ : Fin 1200000) c) = ∑ k : Fin 128, gathered N (edgeSrc E) (ix2 e k) * W1 (ix2 c k) := by
  unfold messages
  exact (join_rows_left _ _ _ e h c).trans (dotE_apply _ _ e c)

/-- … the last E the destinations' rows through `W2`. -/
theorem messages_right (N : FVec Ideal S50000x128 .f32) (E : IVec S2x600000 32) (W1 W2 : FVec Ideal S128x128 .f32)
    (e : Fin 600000) (h : 600000 + e.val < 1200000) (c : Fin 128) :
    messages N E W1 W2 (ix2 (⟨600000 + e.val, h⟩ : Fin 1200000) c) = ∑ k : Fin 128, gathered N (edgeDst E) (ix2 e k) * W2 (ix2 c k) := by
  unfold messages
  exact (join_rows_right _ _ _ e h c).trans (dotE_apply _ _ e c)

/-- The message count of node `n`: ones summed over the edges whose destination is `n`, then over those whose source is. -/
theorem segCnt_apply (E : IVec S2x600000 32) (n : Fin 50000) :
    segCnt E (ix2 n (0 : Fin 1))
      = 0 + ((∑ e : Fin 600000, if hits (edgeDst E) n e then (1 : EReal) else 0)
          + ∑ e : Fin 600000, if hits (edgeSrc E) n e then (1 : EReal) else 0) := by
  unfold segCnt
  refine (host_scatterAdd_rows_apply scatter_S50000x1_S1200000x1_S1200000x1_1_0_0_1_wf
    scatter_S50000x1_S1200000x1_S1200000x1_1_0_0_1 rfl _ _ _ n (0 : Fin 1)).trans ?_
  rw [zeros_apply, sum_rows_split (E1 := 600000) (E2 := 600000) (T := 1200000) rfl]
  refine congrArg (fun s : EReal => (0 : EReal) + s) (congrArg₂ (· + ·)
    (Finset.sum_congr rfl fun e _ => ?_) (Finset.sum_congr rfl fun e _ => ?_))
  · show (if (recvCol E (rowIdx (⟨e.val, _⟩ : Fin 1200000))).toInt = (n.val : Int) then _ else _) = _
    rw [recvCol_left, ones_apply]
    rfl
  · show (if (recvCol E (rowIdx (⟨600000 + e.val, _⟩ : Fin 1200000))).toInt = (n.val : Int) then _ else _) = _
    rw [recvCol_right, ones_apply]
    rfl

/-- The summed messages of node `n`, column `c`. -/
theorem segSum_apply (N : FVec Ideal S50000x128 .f32) (E : IVec S2x600000 32) (W1 W2 : FVec Ideal S128x128 .f32)
    (n : Fin 50000) (c : Fin 128) :
    segSum N E W1 W2 (ix2 n c)
      = 0 + ((∑ e : Fin 600000, if hits (edgeDst E) n e then ∑ k : Fin 128, gathered N (edgeSrc E) (ix2 e k) * W1 (ix2 c k) else 0)
          + ∑ e : Fin 600000, if hits (edgeSrc E) n e then ∑ k : Fin 128, gathered N (edgeDst E) (ix2 e k) * W2 (ix2 c k) else 0) := by
  unfold segSum
  refine (host_scatterAdd_rows_apply scatter_S50000x128_S1200000x1_S1200000x128_1_0_0_1_wf
    scatter_S50000x128_S1200000x1_S1200000x128_1_0_0_1 rfl _ _ _ n c).trans ?_
  rw [zeros_apply, sum_rows_split (E1 := 600000) (E2 := 600000) (T := 1200000) rfl]
  refine congrArg (fun s : EReal => (0 : EReal) + s) (congrArg₂ (· + ·)
    (Finset.sum_congr rfl fun e _ => ?_) (Finset.sum_congr rfl fun e _ => ?_))
  · show (if (recvCol E (rowIdx (⟨e.val, _⟩ : Fin 1200000))).toInt = (n.val : Int) then _ else _) = _
    rw [recvCol_left, messages_left]
    rfl
  · show (if (recvCol E (rowIdx (⟨600000 + e.val, _⟩ : Fin 1200000))).toInt = (n.val : Int) then _ else _) = _
    rw [recvCol_right, messages_right]
    rfl

/-- A gathered row's entries are entries of the node array. -/
theorem gathered_real (N : FVec Ideal S50000x128 .f32) (v : IVec S600000 32) (hN : ∀ i, ∃ r : ℝ, N i = (r : EReal))
    (i : S600000x128.Idx) : ∃ r : ℝ, gathered N v i = (r : EReal) := hN _

/-- THE REFERENCE AT AN ENTRY is the specification, for finite node rows and weights. -/
theorem refOut_apply (N : FVec Ideal S50000x128 .f32) (E : IVec S2x600000 32) (W0 W1 W2 : FVec Ideal S128x128 .f32)
    (hN : ∀ i, ∃ r : ℝ, N i = (r : EReal)) (hW1 : ∀ i, ∃ r : ℝ, W1 i = (r : EReal)) (hW2 : ∀ i, ∃ r : ℝ, W2 i = (r : EReal))
    (n : Fin 50000) (c : Fin 128) :
    refOut N E W0 W1 W2 (ix2 n c)
      = specAt N (edgeDst E) (edgeSrc E) (gathered N (edgeSrc E)) (gathered N (edgeDst E)) W0 W1 W2 n c := by
  rw [← ref_form N (edgeDst E) (edgeSrc E) (gathered N (edgeSrc E)) (gathered N (edgeDst E)) W0 W1 W2 n c
    (gathered_real N _ hN) (gathered_real N _ hN) hW1 hW2]
  unfold refOut
  rw [maximumf_apply, addf_apply, select_apply]
  have hdot : Host.dotGeneral dot_S50000x128_S128x128_S50000x128_1_0_0_1_n_n none N
      (transpose S128x128 [1, 0] W0 transposes_S128x128_S128x128_1_0) (ix2 n c) = ∑ k : Fin 128, N (ix2 n k) * W0 (ix2 c k) := by
    refine (plainN.dotGeneral_apply none .single N _ n c).trans ?_
    exact Finset.sum_congr rfl fun k _ => by rw [transpose2_apply]
  rw [hdot, hostDivf_apply, bcast_col_rows_apply, bcast_col_rows_apply, cmpf_ideal_apply, maximumf_apply]
  rw [zeros_apply, zeros_apply, ones_apply, zeros_id_apply, segCnt_apply, segSum_apply]

end Cert.RefAt

end
-- ==== Proof.Bridge.lean ====
/-
  The two programs compute one array.

  Entry by entry both results are the specification's formula of the same data — the node rows, the two rows of the
  edge list, the node rows gathered per edge, the three weight matrices — once it is noted that the two programs build
  those data by the same operations.  Finiteness of the node rows and of `W1`, `W2` is what lets the reference's
  "transform, then sum" be rearranged into the kernel's "sum, then transform"; `W0` needs no hypothesis.
-/
import proofs.«181108_j50620484550703_2_alg».proof.Proof.KernelAt
import proofs.«181108_j50620484550703_2_alg».proof.Proof.RefAt

noncomputable section

namespace Cert.Bridge

open Idealize.ShloMosaic Idealize.ShloMosaic.ValueIdx

/-- Both programs take row 0 of the edge list by the same slice and reshape. -/
theorem edgeSrc_eq (E : IVec ⟨2, ![2, 600000]⟩ 32) : Cert.KernelHost.edgeSrc E = Cert.RefRun.edgeSrc E := rfl
/-- Both take row 1 the same way. -/
theorem edgeDst_eq (E : IVec ⟨2, ![2, 600000]⟩ 32) : Cert.KernelHost.edgeDst E = Cert.RefRun.edgeDst E := rfl
/-- Both gather node rows by the same wrapped row numbers. -/
theorem gathered_eq (N : FVec Ideal ⟨2, ![50000, 128]⟩ .f32) (v : IVec ⟨1, ![600000]⟩ 32) :
    Cert.KernelHost.gathered N v = Cert.RefRun.gathered N v := rfl

/-- THE RESULTS AGREE, for finite node rows and finite `W1`, `W2`. -/
theorem out_eq (N : FVec Ideal ⟨2, ![50000, 128]⟩ .f32) (E : IVec ⟨2, ![2, 600000]⟩ 32) (W0 W1 W2 : FVec Ideal ⟨2, ![128, 128]⟩ .f32)
    (hN : ∀ i, ∃ r : ℝ, N i = (r : EReal)) (hW1 : ∀ i, ∃ r : ℝ, W1 i = (r : EReal)) (hW2 : ∀ i, ∃ r : ℝ, W2 i = (r : EReal)) :
    Cert.RefRun.refOut N E W0 W1 W2 = Cert.KernelHost.kerOut N E W0 W1 W2 := by
  funext i
  obtain ⟨n, c, rfl⟩ : ∃ (n : Fin 50000) (c : Fin 128), i = ix2 n c := ⟨i 0, i 1, eq_ix2 i⟩
  rw [Cert.RefAt.refOut_apply N E W0 W1 W2 hN hW1 hW2 n c, Cert.KernelAt.kerOut_apply N E W0 W1 W2 n c,
    edgeSrc_eq, edgeDst_eq, gathered_eq, gathered_eq]

end Cert.Bridge

end
-- ==== Proof.Finite.lean ====
/-
  What the precondition says: every node entry and every weight is a real number.

  The precondition is the conjunction of four "all entries have absolute value below +∞" tests, one per float
  argument, and is asked to be true.  An extended real whose absolute value `max x (−x)` is below `+∞` is neither
  `+∞` nor `−∞`, hence a real.
-/
import proofs.«181108_j50620484550703_2_alg».proof.Pre_finite_inputs
import proofs.«181108_j50620484550703_2_alg».proof.Proof.Gen.Pre_finite_inputs
import Idealize.ShloMosaic.Lib.ReduceAll
import Idealize.ShloMosaic.Lib.ValueIdx
import Idealize.ShloMosaic.PureOps.Ideal

noncomputable section

namespace Cert.Finite

open Cert.Pre_finite_inputs Idealize.ShloMosaic Idealize.ShloMosaic.ValueIdx

instance : Subsingleton S_.Idx := ⟨fun a b => funext fun d => d.elim0⟩

/-- An extended real whose absolute value compares below the `+∞` word is a real. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the node array and of the three weight matrices is a real. -/
theorem reals_of_pre (N : FVec Ideal S50000x128 .f32) (E : IVec S2x600000 32) (W0 W1 W2 : FVec Ideal S128x128 .f32)
    (h : fn (F := Ideal) N E W0 W1 W2 = fun _ => 1#1) :
    (∀ i, ∃ r : ℝ, N i = (r : EReal)) ∧ (∀ i, ∃ r : ℝ, W0 i = (r : EReal)) ∧ (∀ i, ∃ r : ℝ, W1 i = (r : EReal))
      ∧ (∀ i, ∃ r : ℝ, W2 i = (r : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt _ (Host.reduce_andi_all _ _ _ _ ix0 h1 i),
    fun i => real_of_abs_lt _ (Host.reduce_andi_all _ _ _ _ ix0 h2 i),
    fun i => real_of_abs_lt _ (Host.reduce_andi_all _ _ _ _ ix0 h3 i),
    fun i => real_of_abs_lt _ (Host.reduce_andi_all _ _ _ _ ix0 h4 i)⟩

end Cert.Finite

end
-- ==== Proof.lean ====
/-
  A relational graph-convolution layer: fused kernel against its plain reference, over the extended reals.

  For node rows `N`, an edge list `E` (sources in row 0, destinations in row 1) and weights `W0, W1, W2`, every node
  averages the messages it receives — along each edge into it the source's row through `W1`, along each edge out of it
  the destination's row through `W2` — adds its own row through `W0`, and rectifies.  The reference transforms each
  of the 2·E messages and then sums them per node; the kernel program sums the raw rows per node first (on the
  host) and transforms the sums once, in one fused kernel over 25 row blocks, multiplying by a reciprocal count
  instead of dividing.  With finite inputs the two are the same function (sums of reals commute with a product by a
  real; a mean is a product with the reciprocal of a positive count, and is replaced by zero where the count is zero
  in both).  The three frames are the generated ones (the reference's is its run with the result dropped); the ideal
  pass rewrote nothing, so the kernel's idealization claim is trivial.
-/
import proofs.«181108_j50620484550703_2_alg».proof.Defs
import proofs.«181108_j50620484550703_2_alg».proof.Proof.Gen.Kernel
import proofs.«181108_j50620484550703_2_alg».proof.Proof.Gen.Kernel.Skeleton
import proofs.«181108_j50620484550703_2_alg».proof.Proof.Gen.Kernel.Launch
import proofs.«181108_j50620484550703_2_alg».proof.Proof.Gen.Kernel.Points
import proofs.«181108_j50620484550703_2_alg».proof.Proof.Gen.Kernel.Frame
import proofs.«181108_j50620484550703_2_alg».proof.Proof.Gen.KernelIdeal
import proofs.«181108_j50620484550703_2_alg».proof.Proof.Gen.KernelIdeal.Skeleton
import proofs.«181108_j50620484550703_2_alg».proof.Proof.Gen.KernelIdeal.Launch
import proofs.«181108_j50620484550703_2_alg».proof.Proof.Gen.KernelIdeal.Points
import proofs.«181108_j50620484550703_2_alg».proof.Proof.Gen.KernelIdeal.Frame
import proofs.«181108_j50620484550703_2_alg».proof.Proof.Gen.ReferenceIdeal
import proofs.«181108_j50620484550703_2_alg».proof.Proof.Gen.Pre_finite_inputs
import proofs.«181108_j50620484550703_2_alg».proof.Proof.Gen.KernelIdeal.Value
import proofs.«181108_j50620484550703_2_alg».proof.Proof.Bridge
import proofs.«181108_j50620484550703_2_alg».proof.Proof.Finite
import Idealize.ShloMosaic.Adequacy
import Idealize.ShloMosaic.Init

noncomputable section

namespace Cert.Proof

open Idealize.ShloMosaic Idealize.SL.Sem

/-- The kernel program runs and keeps its arguments (generated frame). -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and keeps its arguments: its run, with the result dropped. -/
theorem frame_ri : Cert.frame_ReferenceIdeal := fun m ρ _ =>
  (θ_run Cert.ReferenceIdeal.defs _ _).mono (fun _ h c => (h c).2) (Cert.RefRun.run m ρ)

/-- From memories that agree on the arguments, and finite float arguments, both programs end with the same result. -/
theorem algebraic : Cert.algebraic_KernelIdeal_ReferenceIdeal := by
  intro m ρ m' ρ' hpre hagree
  refine ⟨_, Cert.KernelHost.run m ρ, ?_⟩
  refine (θ_run Cert.ReferenceIdeal.defs _ _).mono (fun _ h c => ⟨(h c).1.trans ?_, (h c).2⟩) (Cert.RefRun.run m' ρ')
  obtain ⟨h0, h1, h2, h3, h4⟩ := hagree c
  rw [h0, h1, h2, h3, h4]
  obtain ⟨hN, -, hW1, hW2⟩ := Cert.Finite.reals_of_pre _ _ _ _ _ (hpre c)
  exact Cert.Bridge.out_eq _ _ _ _ _ hN hW1 hW2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
